-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x1024 : Shape := ⟨3, ![2048, 16, 1024]⟩
abbrev S1024x2048 : Shape := ⟨2, ![1024, 2048]⟩
abbrev S1024 : Shape := ⟨1, ![1024]⟩
abbrev S_ : Shape := ⟨0, ![]⟩
abbrev S16x2048x1024 : Shape := ⟨3, ![16, 2048, 1024]⟩
abbrev S16x2048x2048 : Shape := ⟨3, ![16, 2048, 2048]⟩
abbrev S16x2048 : Shape := ⟨2, ![16, 2048]⟩

class Facts : Prop where
  bcast_S_S2048x16x1024 : S_.BroadcastsInDim S2048x16x1024 (![] : Fin 0 → Fin S2048x16x1024.rank)
  reducesTo_S2048x16x1024_S_d0_1_2 : S2048x16x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  transposes_S2048x16x1024_S16x2048x1024_1_0_2 : S2048x16x1024.Transposes [1, 0, 2] S16x2048x1024
  bcast_S_S16x2048x2048 : S_.BroadcastsInDim S16x2048x2048 (![] : Fin 0 → Fin S16x2048x2048.rank)
  reducesTo_S16x2048x2048_S16x2048_d2 : S16x2048x2048.ReducesTo [2] S16x2048
  reducesTo_S16x2048_S_d0_1 : S16x2048.ReducesTo [0, 1] S_
  dot_S16x2048x1024_S16x2048x1024_S16x2048x2048_2_2_1_1_0_0_wf : DotDims.WF S16x2048x1024 S16x2048x1024 S16x2048x2048 [2] [2] [1] [1] [0] [0]

variable [Facts]

def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def fn_part1 {F : FTy → Type} [FloatOps F] (main_arg0 : FVec F S2048x16x1024 .f32) (main_arg1 : FVec F S2048x16x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S16x2048x1024 .f32 := (transpose S16x2048x1024 [1, 0, 2] · transposes_S2048x16x1024_S16x2048x1024_1_0_2) main_arg0
  let main_v20 : FVec F S16x2048x1024 .f32 := (transpose S16x2048x1024 [1, 0, 2] · transposes_S2048x16x1024_S16x2048x1024_1_0_2) main_arg1
  let main_v21 : FVec F S16x2048x2048 .f32 := (fun l r => Host.dotGeneral dot_S16x2048x1024_S16x2048x1024_S16x2048x2048_2_2_1_1_0_0 none l r) main_v19 main_v20
  let main_cst_6 : FVec F S_ .f32 := constant S_ .f32 0x00000000#32
  let main_v22 : FVec F S16x2048x2048 .f32 := broadcastInDim S16x2048x2048 ![] bcast_S_S16x2048x2048 main_cst_6
  let main_v23 : IVec S16x2048x2048 1 := cmpf .une main_v21 main_v22
  let main_c_7 : IVec S_ 1 := constantI S_ 1 0#1
  let main_v24 : IVec S16x2048 1 := (fun x v => Host.reduce IntOp.ori x v reducesTo_S16x2048x2048_S16x2048_d2 h_S_) main_v23 main_c_7
  let main_c_8 : IVec S_ 1 := constantI S_ 1 1#1
  let main_v25 : IVec S_ 1 := (fun x v => Host.reduce IntOp.andi x v reducesTo_S16x2048_S_d0_1 h_S_) main_v24 main_c_8
  let main_v26 : IVec S_ 1 := andi main_v18 main_v25
  main_v26

def fn {F : FTy → Type} [FloatOps F] (main_arg0 : FVec F S2048x16x1024 .f32) (main_arg1 : FVec F S2048x16x1024 .f32) (main_arg2 : FVec F S1024x2048 .f32) (main_arg3 : FVec F S1024 .f32) : IVec S_ 1 :=
  let main_v0 : FVec F S2048x16x1024 .f32 := Host.absf main_arg0
  let main_cst : FVec F S_ .f32 := constant S_ .f32 0x7F800000#32
  let main_v1 : FVec F S2048x16x1024 .f32 := broadcastInDim S2048x16x1024 ![] bcast_S_S2048x16x1024 main_cst
  let main_v2 : IVec S2048x16x1024 1 := cmpf .olt main_v0 main_v1
  let main_c : IVec S_ 1 := constantI S_ 1 1#1
  let main_v3 : IVec S_ 1 := (fun x v => Host.reduce IntOp.andi x v reducesTo_S2048x16x1024_S_d0_1_2 h_S_) main_v2 main_c
  let main_v4 : FVec F S2048x16x1024 .f32 := Host.absf main_arg1
  let main_cst_0 : FVec F S_ .f32 := constant S_ .f32 0x7F800000#32
  let main_v5 : FVec F S2048x16x1024 .f32 := broadcastInDim S2048x16x1024 ![] bcast_S_S2048x16x1024 main_cst_0
  let main_v6 : IVec S2048x16x1024 1 := cmpf .olt main_v4 main_v5
  let main_c_1 : IVec S_ 1 := constantI S_ 1 1#1
  let main_v7 : IVec S_ 1 := (fun x v => Host.reduce IntOp.andi x v reducesTo_S2048x16x1024_S_d0_1_2 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg0 main_arg1 main_v13 main_v16
-- ==== Kernel.lean ====
abbrev S2048x16x1024 : Shape := ⟨3, ![2048, 16, 1024]⟩
abbrev S1024x2048 : Shape := ⟨2, ![1024, 2048]⟩
abbrev S1024 : Shape := ⟨1, ![1024]⟩
abbrev S16x2048x1024 : Shape := ⟨3, ![16, 2048, 1024]⟩
abbrev S1024x1024 : Shape := ⟨2, ![1024, 1024]⟩
abbrev S1x1024 : Shape := ⟨2, ![1, 1024]⟩
abbrev S1x512x1024 : Shape := ⟨3, ![1, 512, 1024]⟩
abbrev S1x2048x1024 : Shape := ⟨3, ![1, 2048, 1024]⟩
abbrev S512x1024 : Shape := ⟨2, ![512, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 16
  | .vmem => 9
  | .smem => 0
  | _ => 0

abbrev bufTy : (tb : Table) → Fin (tcTables nBuf tb) → BufTy
  | .hbm, ⟨0, _⟩ => ⟨S2048x16x1024, .f32⟩
  | .hbm, ⟨1, _⟩ => ⟨S2048x16x1024, .f32⟩
  | .hbm, ⟨2, _⟩ => ⟨S1024x2048, .f32⟩
  | .hbm, ⟨3, _⟩ => ⟨S1024, .f32⟩
  | .hbm, ⟨4, _⟩ => ⟨S16x2048x1024, .f32⟩
  | .hbm, ⟨5, _⟩ => ⟨S16x2048x1024, .bf16⟩
  | .hbm, ⟨6, _⟩ => ⟨S16x2048x1024, .f32⟩
  | .hbm, ⟨7, _⟩ => ⟨S16x2048x1024, .bf16⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S16x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | _, _ => ⟨S2048x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S2048x16x1024_S16x2048x1024_1_0_2 : S2048x16x1024.Transposes [1, 0, 2] S16x2048x1024
  bitsLt_bf16_f32 : FTy.bits .bf16 < FTy.bits .f32
  slices_S1024x2048_S1024x1024_0_0 : S1024x2048.Slices ![0, 0] S1024x1024
  transposes_S1024x1024_S1024x1024_1_0 : S1024x1024.Transposes [1, 0] S1024x1024
  slices_S1024x2048_S1024x1024_0_1024 : S1024x2048.Slices ![0, 1024] S1024x1024
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  broadcasts_S512x1_S512x1024 : S512x1.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x2048x1024.size a
  hwx0_0 : ∀ i : grid0.Coords, EltTy.bits .bf16 = 32 ∨ (Rect.block (s := S16x2048x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S16x2048x1024.size a
  hwx0_1 : ∀ i : grid0.Coords, EltTy.bits .bf16 = 32 ∨ (Rect.block (s := S16x2048x1024) S1x2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S16x2048x1024.size a
  hwx0_5 : ∀ i : grid0.Coords, EltTy.bits .f32 = 32 ∨ (Rect.block (s := S16x2048x1024) S1x512x1024.size (cc0_transform_5 i) (hinb0_5 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v1) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x16x1024 : Shape := ⟨3, ![2048, 16, 1024]⟩
abbrev S1024x2048 : Shape := ⟨2, ![1024, 2048]⟩
abbrev S1024 : Shape := ⟨1, ![1024]⟩
abbrev S16x2048x1024 : Shape := ⟨3, ![16, 2048, 1024]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S2048x16x1024, .f32⟩
  | .hbm, ⟨1, _⟩ => ⟨S2048x16x1024, .f32⟩
  | .hbm, ⟨2, _⟩ => ⟨S1024x2048, .f32⟩
  | .hbm, ⟨3, _⟩ => ⟨S1024, .f32⟩
  | .hbm, ⟨4, _⟩ => ⟨S16x2048x1024, .f32⟩
  | .hbm, ⟨5, _⟩ => ⟨S16x2048x1024, .f32⟩
  | .hbm, ⟨6, _⟩ => ⟨S16x2048x2048, .f32⟩
  | .hbm, ⟨7, _⟩ => ⟨S_, .f32⟩
  | .hbm, ⟨8, _⟩ => ⟨S16x2048x2048, .f32⟩
  | .hbm, ⟨9, _⟩ => ⟨S16x2048x2048, .i1⟩
  | .hbm, ⟨10, _⟩ => ⟨S_, .f32⟩
  | .hbm, ⟨11, _⟩ => ⟨S_, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048, .f32⟩
  | .hbm, ⟨16, _⟩ => ⟨S_, .f32⟩
  | .hbm, ⟨17, _⟩ => ⟨S16x2048, .f32⟩
  | .hbm, ⟨18, _⟩ => ⟨S16x2048, .f32⟩
  | .hbm, ⟨19, _⟩ => ⟨S16x2048x1, .f32⟩
  | .hbm, ⟨20, _⟩ => ⟨S16x2048x2048, .f32⟩
  | .hbm, ⟨21, _⟩ => ⟨S16x2048x2048, .f32⟩
  | .hbm, ⟨22, _⟩ => ⟨S16x2048x2048, .f32⟩
  | .hbm, ⟨23, _⟩ => ⟨S_, .f32⟩
  | .hbm, ⟨24, _⟩ => ⟨S16x2048, .f32⟩
  | .hbm, ⟨25, _⟩ => ⟨S16x2048x1, .f32⟩
  | .hbm, ⟨26, _⟩ => ⟨S16x2048x2048, .f32⟩
  | .hbm, ⟨27, _⟩ => ⟨S16x2048x2048, .f32⟩
  | .hbm, ⟨28, _⟩ => ⟨S16x2048x1024, .f32⟩
  | .hbm, ⟨29, _⟩ => ⟨S16x2048x2048, .f32⟩
  | .hbm, ⟨30, _⟩ => ⟨S16x2048x1024, .f32⟩
  | .hbm, ⟨31, _⟩ => ⟨S1x1x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | _, _ => ⟨S2048x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  transposes_S2048x16x1024_S16x2048x1024_1_0_2 : S2048x16x1024.Transposes [1, 0, 2] S16x2048x1024
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  concatenates_S16x2048x1024_S16x2048x1024_S16x2048x2048_d2 : Shape.Concatenates [S16x2048x1024, S16x2048x1024] S16x2048x2048 2
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]
  dot_S16x2048x2048_S1024x2048_S16x2048x1024_2_1_01_0_n_n_wf : DotDims.WF S16x2048x2048 S1024x2048 S16x2048x1024 [2] [1] [0, 1] [0] [] []

variable [Facts₀]

def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf
def dot_S16x2048x2048_S1024x2048_S16x2048x1024_2_1_01_0_n_n : DotDims S16x2048x2048 S1024x2048 S16x2048x1024 where
  lhsContracting := [2]
  rhsContracting := [1]
  lhsNonContracting := [0, 1]
  rhsNonContracting := [0]
  lhsBatch := []
  rhsBatch := []
  wf := dot_S16x2048x2048_S1024x2048_S16x2048x1024_2_1_01_0_n_n_wf

class Facts : Prop extends Facts₀ where

variable [Facts]
-- ==== Proof.LibSoftmaxLaw.lean ====
/-
  A softmax-weighted sum over the extended reals, normalised in two orders.

  For a row `v` of scores in `ℝ ∪ {⊥}` (an entry `⊥` is a masked one) with at least one entry that is not `⊥`, let
  `M` be the row's maximum and `w s = exp (v s - M)` its weights: each `w s` is a real in `[0, 1]`, a masked entry's
  weight is `0`, and the entry at which the maximum is attained has weight `1`, so the weights' sum `L` is a real
  `≥ 1`. For real factors `c s`, dividing the weighted sum by `L` is then the sum of the weights each divided by `L`:
      (∑ s, w s · c s) / L = ∑ s, (w s / L) · c s ,
  the real identity `(∑ p·c) · L⁻¹ = ∑ (p · L⁻¹) · c`. (Without an unmasked entry every weight is `exp (⊥ - ⊥) = 0`,
  `L = 0`, and the two sides are different junk values of `0 / 0`: the hypothesis is needed.)
-/
import Idealize.ShloMosaic.PureOps.Ideal
import Mathlib.Data.EReal.Basic
import Mathlib.Algebra.BigOperators.Field
import Mathlib.Data.Finset.Fold

noncomputable section

namespace Cert.SoftmaxLaw

open Idealize.ShloMosaic

variable {ι : Type} [Fintype ι]

/-- A row's maximum, folded from `⊥`. -/
def rowMax (v : ι → EReal) : EReal := (Finset.univ : Finset ι).fold max ⊥ v

/-- A row's softmax weights before normalisation: `exp (v s - max v)`. -/
def wgt (v : ι → EReal) (s : ι) : EReal := Ideal.exp (v s - rowMax v)

/-- A finite sum of reals, taken in the extended reals, is the real sum. -/
theorem coe_sum (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- A maximum folded from `⊥` over a finite set is `⊥` or is attained on the set. -/
theorem fold_max_attained (t : Finset ι) (v : ι → EReal) :
    t.fold max ⊥ v = ⊥ ∨ ∃ x ∈ t, v x = t.fold max ⊥ v := by
  classical
  induction t using Finset.induction_on with
  | empty => left; simp
  | insert a t ha ih =>
    rw [Finset.fold_insert ha]
    rcases le_total (v a) (t.fold max ⊥ v) with h | h
    · rw [max_eq_right h]
      rcases ih with h0 | ⟨x, hx, hxe⟩
      · left; exact h0
      · right; exact ⟨x, Finset.mem_insert_of_mem hx, hxe⟩
    · rw [max_eq_left h]
      right; exact ⟨a, Finset.mem_insert_self a t, rfl⟩

/-- Dividing the weighted sum by the weights' sum is summing the normalised weights' products. -/
theorem div_sum_eq_sum_div (v c : ι → EReal) (hv : ∀ s, v s ≠ ⊤) (hex : ∃ s, v s ≠ ⊥)
    (hc : ∀ s, c s ≠ ⊤ ∧ c s ≠ ⊥) :
    Ideal.div (∑ s, wgt v s * c s) (∑ s, wgt v s) = ∑ s, Ideal.div (wgt v s) (∑ s', wgt v s') * c s := by
  classical
  obtain ⟨s₁, hs₁⟩ := hex
  -- the maximum bounds every entry, is not `⊤`, is not `⊥`, and is attained
  have hle : ∀ s, v s ≤ rowMax v := fun s =>
    (Finset.le_fold_max (v s)).mpr (Or.inr ⟨s, Finset.mem_univ s, le_rfl⟩)
  have hMtop : rowMax v ≠ ⊤ := lt_top_iff_ne_top.mp
    ((Finset.fold_max_lt ⊤).mpr ⟨bot_lt_top, fun x _ => lt_top_iff_ne_top.mpr (hv x)⟩)
  have hMbot : rowMax v ≠ ⊥ := fun h => hs₁ (le_bot_iff.mp (h ▸ hle s₁))
  obtain ⟨s₀, -, hs₀⟩ : ∃ x ∈ (Finset.univ : Finset ι), v x = rowMax v := by
    rcases fold_max_attained Finset.univ v with h | h
    · exact absurd h hMbot
    · exact h
  obtain ⟨Mr, hMr⟩ : ∃ Mr : ℝ, (Mr : EReal) = rowMax v :=
    ⟨(rowMax v).toReal, EReal.coe_toReal hMtop hMbot⟩
  -- every weight is a nonnegative real, and the weight at the maximum is `1`
  have hw : ∀ s, ∃ p : ℝ, wgt v s = (p : EReal) ∧ 0 ≤ p ∧ (v s = rowMax v → p = 1) := by
    intro s
    have hvs := hv s
    simp only [wgt, ← hMr]
    generalize v s = x at hvs ⊢
    induction x using EReal.rec with
    | bot =>
      refine ⟨0, ?_, le_rfl, fun h => absurd h (EReal.bot_ne_coe Mr)⟩
      rw [EReal.bot_sub, Ideal.exp_bot, EReal.coe_zero]
    | coe r =>
      refine ⟨Real.exp (r - Mr), ?_, (Real.exp_pos _).le, fun h => ?_⟩
      · rw [← EReal.coe_sub, Ideal.exp_coe]
      · rw [EReal.coe_eq_coe_iff.mp h, sub_self, Real.exp_zero]
    | top => exact absurd rfl hvs
  choose p hp hp0 hp1 using hw
  -- the weights' sum is a real `≥ 1`
  have hsumw : ∑ s, wgt v s = ((∑ s, p s : ℝ) : EReal) := by
    rw [← coe_sum]; exact Finset.sum_congr rfl (fun s _ => hp s)
  have hLpos : (0 : ℝ) < ∑ s, p s := by
    have h1 : p s₀ ≤ ∑ s, p s :=
      Finset.single_le_sum (fun i _ => hp0 i) (Finset.mem_univ s₀)
    rw [hp1 s₀ hs₀] at h1
    linarith
  have hL : (∑ s, p s) ≠ 0 := ne_of_gt hLpos
  -- the factors are reals
  have hcr : ∀ s, ∃ r : ℝ, c s = (r : EReal) := fun s =>
    ⟨(c s).toReal, (EReal.coe_toReal (hc s).1 (hc s).2).symm⟩
  choose cr hcr using hcr
  calc Ideal.div (∑ s, wgt v s * c s) (∑ s, wgt v s)
      = (∑ s, ((p s * cr s : ℝ) : EReal)) * ((1 / (∑ s, p s) : ℝ) : EReal) := by
        rw [hsumw, Ideal.div_coe hL]
        congr 1
        exact Finset.sum_congr rfl (fun s _ => by rw [hp s, hcr s, EReal.coe_mul])
    _ = (((∑ s, p s * cr s) * (1 / (∑ s, p s)) : ℝ) : EReal) := by
        rw [coe_sum, EReal.coe_mul]
    _ = ((∑ s, p s * (1 / (∑ s', p s')) * cr s : ℝ) : EReal) := by
        congr 1
        rw [Finset.sum_mul]
        exact Finset.sum_congr rfl (fun s _ => by ring)
    _ = ∑ s, ((p s * (1 / (∑ s', p s')) * cr s : ℝ) : EReal) := (coe_sum _ _).symm
    _ = ∑ s, Ideal.div (wgt v s) (∑ s', wgt v s') * c s := by
        refine Finset.sum_congr rfl (fun s _ => ?_)
        rw [hsumw, Ideal.div_coe hL, hp s, hcr s, EReal.coe_mul, EReal.coe_mul]

end Cert.SoftmaxLaw

end
-- ==== Proof.Spec.lean ====
/-
  The attention block's result at one index, as a function of one query row `q`, one batch's context rows `C`, one
  row of the linear layer's weights and one bias entry — in the two orders the two programs compute it.

  Scores `∑ d, q d · C s d`; a score that is exactly zero is masked to `⊥`; the weights are `exp (v s - max v)`
  (LibSoftmaxLaw's `wgt`). The kernel normalises AFTER the weighted sum of the context rows, `(∑ s, w s · C s k) / L`,
  and applies the linear layer as two products, one over the mix and one over the query; the reference normalises the
  weights first, `∑ s, (w s / L) · C s k`, and applies the layer as ONE product over the concatenation `[mix, q]`.
  The two results are equal when `q` and `C` are real and one score of the row is not zero: the normalisations by
  LibSoftmaxLaw's law, the layer by splitting a sum over `2048 = 1024 + 1024` coordinates.
-/
import proofs.«169000_j9174050144557_2_alg».proof.Proof.LibSoftmaxLaw
import Mathlib.Algebra.BigOperators.Fin

noncomputable section

namespace Cert.Attn

open Idealize.ShloMosaic Cert.SoftmaxLaw

/-- The zero-mask: a score that is exactly zero reads `⊥`. -/
def msk (x : EReal) : EReal := if x = 0 then ⊥ else x

/-- A row's scores against every context row. -/
def score (q : Fin 1024 → EReal) (C : Fin 2048 → Fin 1024 → EReal) (s : Fin 2048) : EReal := ∑ d, q d * C s d

/-- A row's masked scores. -/
def mscore (q : Fin 1024 → EReal) (C : Fin 2048 → Fin 1024 → EReal) (s : Fin 2048) : EReal := msk (score q C s)

/-- The mix, normalised after the weighted sum (the kernel's order). -/
def mixK (q : Fin 1024 → EReal) (C : Fin 2048 → Fin 1024 → EReal) (k : Fin 1024) : EReal :=
  Ideal.div (∑ s, wgt (mscore q C) s * C s k) (∑ s, wgt (mscore q C) s)

/-- The mix, the weights normalised first (the reference's order). -/
def mixR (q : Fin 1024 → EReal) (C : Fin 2048 → Fin 1024 → EReal) (k : Fin 1024) : EReal :=
  ∑ s, Ideal.div (wgt (mscore q C) s) (∑ s', wgt (mscore q C) s') * C s k

/-- The result with the linear layer as two products: the mix against `wm`, the query against `wq`. -/
def outK (q : Fin 1024 → EReal) (C : Fin 2048 → Fin 1024 → EReal) (wm wq : Fin 1024 → EReal) (b : EReal) : EReal :=
  Ideal.tanh ((∑ k, mixK q C k * wm k + ∑ k, q k * wq k) + b)

/-- The concatenation `[x, y]` of two rows of 1024 entries. -/
def cat (x y : Fin 1024 → EReal) (k : Fin 2048) : EReal :=
  if h : k.val < 1024 then x ⟨k.val, h⟩ else y ⟨k.val - 1024, by have := k.isLt; omega⟩

/-- The result with the linear layer as one product over the concatenation `[mix, q]`. -/
def outR (q : Fin 1024 → EReal) (C : Fin 2048 → Fin 1024 → EReal) (w : Fin 2048 → EReal) (b : EReal) : EReal :=
  Ideal.tanh ((∑ k, cat (mixR q C) q k * w k) + b)

/-- A product over the concatenation is the two halves' products, added. -/
theorem sum_cat (x y : Fin 1024 → EReal) (w : Fin 2048 → EReal) :
    ∑ k, cat x y k * w k
      = ∑ k : Fin 1024, x k * w ⟨k.val, by have := k.isLt; omega⟩ + ∑ k : Fin 1024, y k * w ⟨1024 + k.val, by have := k.isLt; omega⟩ := by
  calc ∑ k, cat x y k * w k = ∑ k : Fin (1024 + 1024), cat x y k * w k := rfl
    _ = _ := by
      rw [Fin.sum_univ_add]
      have h1 : ∀ k : Fin 1024, cat x y (Fin.castAdd 1024 k) * w (Fin.castAdd 1024 k)
          = x k * w ⟨k.val, by have := k.isLt; omega⟩ := by
        intro k
        have hk : (Fin.castAdd 1024 k).val < 1024 := k.isLt
        unfold cat
        rw [dif_pos hk]
        rfl
      have h2 : ∀ k : Fin 1024, cat x y (Fin.natAdd 1024 k) * w (Fin.natAdd 1024 k)
          = y k * w ⟨1024 + k.val, by have := k.isLt; omega⟩ := by
        intro k
        have hk : ¬ (Fin.natAdd 1024 k).val < 1024 := by simp
        have hy : (⟨(Fin.natAdd 1024 k).val - 1024, by have := k.isLt; simp⟩ : Fin 1024) = k := by
          ext; simp
        unfold cat
        rw [dif_neg hk, hy]
        rfl
      rw [Finset.sum_congr rfl (fun k _ => h1 k), Finset.sum_congr rfl (fun k _ => h2 k)]

/-- The two orders agree on a row of real queries and real context rows with one score that is not zero. -/
theorem outK_eq_outR (q : Fin 1024 → EReal) (C : Fin 2048 → Fin 1024 → EReal) (w : Fin 2048 → EReal) (b : EReal)
    (hq : ∀ d, q d ≠ ⊤ ∧ q d ≠ ⊥) (hC : ∀ s d, C s d ≠ ⊤ ∧ C s d ≠ ⊥) (hex : ∃ s, score q C s ≠ 0) :
    outK q C (fun k => w ⟨k.val, by have := k.isLt; omega⟩) (fun k => w ⟨1024 + k.val, by have := k.isLt; omega⟩) b = outR q C w b := by
  -- the queries and the context rows are reals, so every score is a real
  have hqr : ∀ d, ∃ r : ℝ, q d = (r : EReal) := fun d =>
    ⟨(q d).toReal, (EReal.coe_toReal (hq d).1 (hq d).2).symm⟩
  choose qr hqr using hqr
  have hCr : ∀ s d, ∃ r : ℝ, C s d = (r : EReal) := fun s d =>
    ⟨(C s d).toReal, (EReal.coe_toReal (hC s d).1 (hC s d).2).symm⟩
  choose Cr hCr using hCr
  have hscore : ∀ s, score q C s = ((∑ d, qr d * Cr s d : ℝ) : EReal) := by
    intro s
    unfold score
    rw [← coe_sum]
    exact Finset.sum_congr rfl (fun d _ => by rw [hqr d, hCr s d, EReal.coe_mul])
  -- a masked score is a real or `⊥`, and the score that is not zero is not masked
  have hv : ∀ s, mscore q C s ≠ ⊤ := by
    intro s
    unfold mscore msk
    rw [hscore s]
    split_ifs
    · exact bot_ne_top
    · exact EReal.coe_ne_top _
  have hex' : ∃ s, mscore q C s ≠ ⊥ := by
    obtain ⟨s, hs⟩ := hex
    refine ⟨s, ?_⟩
    unfold mscore msk
    rw [if_neg hs, hscore s]
    exact EReal.coe_ne_bot _
  have hmix : ∀ k, mixK q C k = mixR q C k := fun k =>
    div_sum_eq_sum_div (mscore q C) (fun s => C s k) hv hex' (fun s => hC s k)
  unfold outK outR
  rw [sum_cat]
  simp only [hmix]

end Cert.Attn

end
-- ==== Proof.LibMat.lean ====
/-
  A matrix product read at an index. For the plain dimension numbers (rows × contraction times contraction × columns)
  a `tpu.matmul` into the zero accumulator, at the ideal values, is at (a, b) the sum over the contracted coordinate `c`
  of the left operand at (a, c) times the right operand at (c, b): the contraction's index set has one axis, and the sum
  over it is re-indexed by that axis's coordinate.
-/
import Idealize.ShloMosaic.PureOps.Ideal.Laws
import Idealize.ShloMosaic.Lib.ValueIdx
import Idealize.ShloMosaic.Lib.ValueLayout

noncomputable section

open scoped BigOperators

namespace Cert.LibMat

open Idealize.ShloMosaic Idealize.ShloMosaic.ValueIdx

/-- The plain dimension numbers over any witness of their well-formedness. -/
abbrev plainDims {m k n : ℕ} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- A plain matrix product into the zero accumulator, at (a, b): the sum over the contracted coordinate. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (plainDims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMat

end
-- ==== Proof.KernelPay.lean ====
/-
  The kernel body's value at one index of its output block.

  The body loads a block of 512 query rows `P0`, one batch's 2048 context rows `P1`, the two halves of the linear layer's
  weights transposed (`P2`, `P3`: entry (k, e) is the weight of input coordinate k for output coordinate e) and the bias
  row `P4`. Read at row `r` and output coordinate `e`, what it stores is the attention block's result in the kernel's
  order (Spec's `outK`): scores of query row `r` against every context row by the first matrix product, the zero-mask,
  the row's maximum and the weights' sum as lane reductions, the weighted sum of the context rows by the second product
  divided by the weights' sum, and the linear layer as two more products plus the bias, under `tanh`.
  The stages below are the body's operations in order, named; `pay_eq` says the body is their composition.
-/
import proofs.«169000_j9174050144557_2_alg».proof.Proof.Gen.KernelIdeal.Skeleton
import proofs.«169000_j9174050144557_2_alg».proof.Proof.Spec
import proofs.«169000_j9174050144557_2_alg».proof.Proof.LibMat
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Pay

open Idealize.ShloMosaic Idealize.ShloMosaic.ValueIdx Cert.KernelIdeal Cert.KernelIdeal.Gen

variable (P0 : Vec Ideal S1x512x1024 .bf16) (P1 : Vec Ideal S1x2048x1024 .bf16) (P2 P3 : Vec Ideal S1024x1024 .bf16)
  (P4 : Vec Ideal S1x1024 .f32)

/-- The query block as 512 rows. -/
def qv : FVec Ideal S512x1024 .bf16 := shapeCast S512x1024 P0 shapeCasts_S1x512x1024_S512x1024
/-- The context block as 2048 rows. -/
def cv : FVec Ideal S2048x1024 .bf16 := shapeCast S2048x1024 P1 shapeCasts_S1x2048x1024_S2048x1024
/-- The scores: query rows against context rows. -/
def sc : FVec Ideal S512x2048 .f32 :=
  matmul dot_S512x1024_S2048x1024_S512x2048_1_1_0_0_n_n none (qv P0) (cv P1) (constant S512x2048 .f32 0x00000000#32)
/-- The masked scores: an exact zero reads the named `⊥`. -/
def ms : FVec Ideal S512x2048 .f32 :=
  select (cmpf .oeq (sc P0 P1) (broadcast S512x2048 (Scalar.ofBits (F := Ideal) .f32 0x00000000#32)))
    (broadcast S512x2048 (Named.named (F := Ideal) κ "neg_big" (φ := .f32) 0xFF333332#32)) (sc P0 P1)
/-- Each row's maximum. -/
def mx : FVec Ideal S512 .f32 :=
  multiReduction .maximumf [1] S512 (ms P0 P1) 0xFF800000#32 reduces_S512x2048_S512 (.inl rfl) rfl
/-- The weights `exp (score - row maximum)`. -/
def ex : FVec Ideal S512x2048 .f32 :=
  exp (subf (ms P0 P1) (broadcastTo S512x2048 (shapeCast S512x1 (mx P0 P1) shapeCasts_S512_S512x1) broadcasts_S512x1_S512x2048))
/-- Each row's sum of weights. -/
def ls : FVec Ideal S512 .f32 :=
  multiReduction .add [1] S512 (ex P0 P1) 0x00000000#32 reduces_S512x2048_S512 (.inl rfl) rfl
/-- The mix: the weighted sum of the context rows, divided by the row's sum of weights. -/
def mixv : FVec Ideal S512x1024 .f32 :=
  divf (matmul dot_S512x2048_S2048x1024_S512x1024_1_0_0_1_n_n none (truncf .bf16 (ex P0 P1) bitsLt_bf16_f32) (cv P1)
      (constant S512x1024 .f32 0x00000000#32))
    (broadcastTo S512x1024 (shapeCast S512x1 (ls P0 P1) shapeCasts_S512_S512x1) broadcasts_S512x1_S512x1024)

/-- The mix's half of the weights, as loaded. -/
def wmv : FVec Ideal S1024x1024 .bf16 := shapeCast S1024x1024 P2 shapeCasts_S1024x1024_S1024x1024
/-- The query's half of the weights, as loaded. -/
def wqv : FVec Ideal S1024x1024 .bf16 := shapeCast S1024x1024 P3 shapeCasts_S1024x1024_S1024x1024
/-- The bias row, repeated down the 512 rows. -/
def bv : FVec Ideal S512x1024 .f32 :=
  broadcastTo S512x1024 (shapeCast S1x1024 P4 shapeCasts_S1x1024_S1x1024 : FVec Ideal S1x1024 .f32) broadcasts_S1x1024_S512x1024
/-- The linear layer's product over the mix. -/
def lin1 : FVec Ideal S512x1024 .f32 :=
  matmul dot_S512x1024_S1024x1024_S512x1024_1_0_0_1_n_n none (truncf .bf16 (mixv P0 P1) bitsLt_bf16_f32 : FVec Ideal S512x1024 .bf16)
    (wmv P2) (constant S512x1024 .f32 0x00000000#32)
/-- The linear layer's product over the query rows. -/
def lin2 : FVec Ideal S512x1024 .f32 :=
  matmul dot_S512x1024_S1024x1024_S512x1024_1_0_0_1_n_n none (qv P0) (wqv P3) (constant S512x1024 .f32 0x00000000#32)

/-! ## The stages read at an index -/

/-- The query rows: row `r` of the block. -/
theorem qv_apply (r : Fin 512) (d : Fin 1024) : qv P0 (ix2 r d) = P0 (ix3 0 r d) := by
  unfold qv
  exact shapeCast_apply _ _ _ _ (by
    rw [Shape.rowMajor_val_three, Shape.rowMajor_val_two]
    show (0 * 512 + r.val) * 1024 + d.val = r.val * 1024 + d.val
    omega)

/-- The context rows: row `s` of the block. -/
theorem cv_apply (s : Fin 2048) (d : Fin 1024) : cv P1 (ix2 s d) = P1 (ix3 0 s d) := by
  unfold cv
  exact shapeCast_apply _ _ _ _ (by
    rw [Shape.rowMajor_val_three, Shape.rowMajor_val_two]
    show (0 * 2048 + s.val) * 1024 + d.val = s.val * 1024 + d.val
    omega)

/-- The mix's weights are the block as loaded. -/
theorem wmv_eq : wmv P2 = P2 := shapeCast_self _ _

/-- The query's weights are the block as loaded. -/
theorem wqv_eq : wqv P3 = P3 := shapeCast_self _ _

/-- The bias at row `r` is the bias row. -/
theorem bv_apply (r : Fin 512) (e : Fin 1024) : bv P4 (ix2 r e) = P4 (ix2 0 e) := by
  unfold bv
  rw [shapeCast_self]
  exact broadcastTo_apply _ _ _ (ix2 0 e) (fun a => by
    match a with
    | ⟨0, _⟩ => rfl
    | ⟨1, _⟩ => rfl)

/-- The dimension numbers of a product that contracts both operands on their second axis (rows × contraction times
    columns × contraction), over any witness of their well-formedness. -/
abbrev rowsDims {m k n : ℕ} (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- A product of rows against rows into the zero accumulator, at (a, b): the sum over the contracted coordinate `c` of
    the left operand at (a, c) times the right operand at (b, c). -/
theorem matmul_rows_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    matmul (rowsDims w) prec A B (constant ⟨2, ![m, n]⟩ .f32 0x00000000#32) (ix2 a b) = ∑ c : Fin k, A (ix2 a c) * B (ix2 b c) := by
  show FloatOps.matmul _ prec A B _ (ix2 a b) = _
  rw [Ideal.matmul_constant_zero_apply, ← Equiv.sum_comp (contrEquiv1 (rowsDims w) k rfl rfl).symm]
  refine Finset.sum_congr rfl fun c _ => ?_
  have c2 := contrEquiv1_symm_val (rowsDims w) k rfl rfl c
  have l2 : (rowsDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (rowsDims w).rhsIdx (ix2 a b) ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The score of query row `r` against context row `s`. -/
theorem sc_apply (r : Fin 512) (s : Fin 2048) :
    sc P0 P1 (ix2 r s) = ∑ d : Fin 1024, P0 (ix3 0 r d) * P1 (ix3 0 s d) := by
  unfold sc
  show matmul (rowsDims dot_S512x1024_S2048x1024_S512x2048_1_1_0_0_n_n_wf) none (qv P0) (cv P1)
      (constant S512x2048 .f32 0x00000000#32) (ix2 r s) = _
  rw [matmul_rows_apply]
  exact Finset.sum_congr rfl fun d _ => by rw [qv_apply, cv_apply]

/-- The select on "is exactly zero" between `⊥` and the value is the zero-mask. -/
theorem select_oeq_zero (x : EReal) :
    Scalar.select (Ideal.cmp .oeq x 0) (⊥ : EReal) x = Cert.Attn.msk x := by
  unfold Cert.Attn.msk
  by_cases h : x = 0
  · simp [Ideal.cmp, Scalar.select, h]
  · simp [Ideal.cmp, Scalar.select, h]

/-- The masked score is the zero-mask of the score. -/
theorem ms_apply (r : Fin 512) (s : Fin 2048) : ms P0 P1 (ix2 r s) = Cert.Attn.msk (sc P0 P1 (ix2 r s)) := by
  have hneg : Named.named (F := Ideal) κ "neg_big" (φ := .f32) 0xFF333332#32 = (⊥ : EReal) :=
    IdealRules.named_const.ideal_named_scalar _ _ _ _ rfl
  show Scalar.select (Ideal.cmp .oeq (sc P0 P1 (ix2 r s)) (Ideal.ofBits .f32 0x00000000#32))
      (Named.named (F := Ideal) κ "neg_big" (φ := .f32) 0xFF333332#32) (sc P0 P1 (ix2 r s)) = _
  rw [hneg, Ideal.ofBits_zero_f32]
  exact select_oeq_zero _

/-- The masked scores of query row `r` are the specification's, of that row and the context rows. -/
theorem ms_row (r : Fin 512) :
    (fun s : Fin 2048 => ms P0 P1 (ix2 r s))
      = Cert.Attn.mscore (fun d => P0 (ix3 0 r d)) (fun s d => P1 (ix3 0 s d)) :=
  funext fun s => by rw [ms_apply, sc_apply]; rfl

/-- The index of row `r` with lane coordinate `s` put back. -/
theorem lift_row (r : Fin 512) (s : Fin 2048) : reduces_S512x2048_S512.lift (ix1 r) s = ix2 r s := by
  funext c; apply Fin.ext
  match c with
  | ⟨0, _⟩ => rfl
  | ⟨1, _⟩ => rfl

/-- Each row's maximum is the fold of `max` from `⊥` over the row's masked scores. -/
theorem mx_apply (r : Fin 512) :
    mx P0 P1 (ix1 r) = Cert.SoftmaxLaw.rowMax (fun s : Fin 2048 => ms P0 P1 (ix2 r s)) := by
  unfold mx
  refine (Ideal.multiReduction_maximumf_single (ms P0 P1) _ reduces_S512x2048_S512 _ _ (ix1 r)).trans ?_
  have hb : Ideal.ofBits .f32 0xFF800000#32 = (⊥ : EReal) := by simp [Ideal.ofBits, Ideal.ieee]
  have hf : (ms P0 P1 ∘ reduces_S512x2048_S512.lift (ix1 r)) = fun s : Fin 2048 => ms P0 P1 (ix2 r s) :=
    funext fun s => congrArg (ms P0 P1) (lift_row r s)
  show (Finset.univ : Finset (Fin 2048)).fold max (Ideal.ofBits .f32 0xFF800000#32)
      (ms P0 P1 ∘ reduces_S512x2048_S512.lift (ix1 r)) = (Finset.univ : Finset (Fin 2048)).fold max ⊥ (fun s => ms P0 P1 (ix2 r s))
  rw [hf, hb]
  rfl

/-- A column of row values, repeated along `n` lanes, reads the row's value. -/
theorem col_apply {n : ℕ} (v : FVec Ideal S512 .f32) (hb : S512x1.Broadcasts ⟨2, ![512, n]⟩) (r : Fin 512) (s : Fin n) :
    broadcastTo ⟨2, ![512, n]⟩ (shapeCast S512x1 v shapeCasts_S512_S512x1) hb (ix2 r s) = v (ix1 r) := by
  refine (broadcastTo_apply _ _ _ (ix2 r 0) (fun a => by
    match a with
    | ⟨0, _⟩ => rfl
    | ⟨1, _⟩ => rfl)).trans ?_
  exact shapeCast_apply _ _ _ _ (by
    rw [Shape.rowMajor_val_one, Shape.rowMajor_val_two]
    show r.val = r.val * 1 + 0
    omega)

/-- The weight of context row `s` for query row `r`. -/
theorem ex_apply (r : Fin 512) (s : Fin 2048) :
    ex P0 P1 (ix2 r s)
      = Cert.SoftmaxLaw.wgt (Cert.Attn.mscore (fun d => P0 (ix3 0 r d)) (fun s d => P1 (ix3 0 s d))) s := by
  rw [← ms_row]
  show Ideal.exp (ms P0 P1 (ix2 r s)
      - broadcastTo S512x2048 (shapeCast S512x1 (mx P0 P1) shapeCasts_S512_S512x1) broadcasts_S512x1_S512x2048 (ix2 r s)) = _
  rw [col_apply, mx_apply]
  rfl

/-- Each row's sum of weights. -/
theorem ls_apply (r : Fin 512) : ls P0 P1 (ix1 r) = ∑ s : Fin 2048, ex P0 P1 (ix2 r s) := by
  unfold ls
  refine (Ideal.multiReduction_add_single (ex P0 P1) _ reduces_S512x2048_S512 _ _ (ix1 r)).trans ?_
  show ∑ s : Fin 2048, ex P0 P1 (reduces_S512x2048_S512.lift (ix1 r) s) = _
  exact Finset.sum_congr rfl fun s _ => congrArg (ex P0 P1) (lift_row r s)

/-- The mix at row `r`, coordinate `k`: the specification's, in the kernel's order. -/
theorem mixv_apply (r : Fin 512) (k : Fin 1024) :
    mixv P0 P1 (ix2 r k) = Cert.Attn.mixK (fun d => P0 (ix3 0 r d)) (fun s d => P1 (ix3 0 s d)) k := by
  have hm : matmul dot_S512x2048_S2048x1024_S512x1024_1_0_0_1_n_n none (truncf .bf16 (ex P0 P1) bitsLt_bf16_f32) (cv P1)
      (constant S512x1024 .f32 0x00000000#32) (ix2 r k) = ∑ s : Fin 2048, ex P0 P1 (ix2 r s) * P1 (ix3 0 s k) := by
    show matmul (Cert.LibMat.plainDims dot_S512x2048_S2048x1024_S512x1024_1_0_0_1_n_n_wf) none
        (truncf .bf16 (ex P0 P1) bitsLt_bf16_f32) (cv P1) (constant S512x1024 .f32 0x00000000#32) (ix2 r k) = _
    rw [Cert.LibMat.matmul_plain_apply]
    exact Finset.sum_congr rfl fun s _ => by rw [truncf_apply, cv_apply]
  unfold mixv
  rw [divf_apply, col_apply, ls_apply, hm]
  simp only [ex_apply]
  rfl

/-- The linear layer's product over the mix, at row `r`, output coordinate `e`. -/
theorem lin1_apply (r : Fin 512) (e : Fin 1024) :
    lin1 P0 P1 P2 (ix2 r e)
      = ∑ k : Fin 1024, Cert.Attn.mixK (fun d => P0 (ix3 0 r d)) (fun s d => P1 (ix3 0 s d)) k * P2 (ix2 k e) := by
  unfold lin1
  show matmul (Cert.LibMat.plainDims dot_S512x1024_S1024x1024_S512x1024_1_0_0_1_n_n_wf) none
      (truncf .bf16 (mixv P0 P1) bitsLt_bf16_f32 : FVec Ideal S512x1024 .bf16) (wmv P2)
      (constant S512x1024 .f32 0x00000000#32) (ix2 r e) = _
  rw [Cert.LibMat.matmul_plain_apply]
  exact Finset.sum_congr rfl fun k _ => by rw [truncf_apply, mixv_apply, wmv_eq]

/-- The linear layer's product over the query row, at row `r`, output coordinate `e`. -/
theorem lin2_apply (r : Fin 512) (e : Fin 1024) :
    lin2 P0 P3 (ix2 r e) = ∑ k : Fin 1024, P0 (ix3 0 r k) * P3 (ix2 k e) := by
  unfold lin2
  show matmul (Cert.LibMat.plainDims dot_S512x1024_S1024x1024_S512x1024_1_0_0_1_n_n_wf) none (qv P0) (wqv P3)
      (constant S512x1024 .f32 0x00000000#32) (ix2 r e) = _
  rw [Cert.LibMat.matmul_plain_apply]
  exact Finset.sum_congr rfl fun k _ => by rw [qv_apply, wqv_eq]

/-- The body's value is the composition of the stages. -/
theorem pay_eq : k0_pay2 (F := Ideal) P0 P1 P2 P3 P4 = tanh (addf (addf (lin1 P0 P1 P2) (lin2 P0 P3)) (bv P4)) := rfl

/-- The body's value at row `r`, output coordinate `e`: the attention result in the kernel's order, of query row `r`
    of the block, the context rows, column `e` of the two weight blocks and entry `e` of the bias row. -/
theorem pay_apply (r : Fin 512) (e : Fin 1024) :
    k0_pay2 (F := Ideal) P0 P1 P2 P3 P4 (ix2 r e)
      = Cert.Attn.outK (fun d => P0 (ix3 0 r d)) (fun s d => P1 (ix3 0 s d)) (fun k => P2 (ix2 k e)) (fun k => P3 (ix2 k e))
          (P4 (ix2 0 e)) := by
  rw [pay_eq]
  show Ideal.tanh ((lin1 P0 P1 P2 (ix2 r e) + lin2 P0 P3 (ix2 r e)) + bv P4 (ix2 r e)) = _
  rw [lin1_apply, lin2_apply, bv_apply]
  rfl

end Cert.KernelIdeal.Pay

end
-- ==== Proof.KernelHost.lean ====
/-
  What the kernel's windows find in their arrays when the region is entered.

  Before the region @main transposes the two sequence arguments to batch-major, slices the weight matrix into its two
  halves and transposes each, reshapes the bias to one row, and converts the float formats (the identity at the ideal
  values). Read at an index: the query array at (b, t, d) is the first argument at (t, b, d), the context array at
  (b, s, d) the second argument at (s, b, d), the mix's weight block at (k, e) the weight matrix at (e, k), the query's
  weight block at (k, e) the weight matrix at (e, 1024 + k), and the bias row at (0, e) the bias at e.
-/
import proofs.«169000_j9174050144557_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.HostV

open Idealize.ShloMosaic Idealize.ShloMosaic.ValueIdx Idealize.ShloMosaic.TcCoe Idealize.ShloMosaic.StableHlo Idealize.SL.Sem
open Cert.KernelIdeal Cert.KernelIdeal.Gen

variable (m : (ℓ : Loc nD τ sig) → Buf (Elt Ideal) ℓ) (c : Dev nD)

/-- The query array: the first argument transposed to batch-major (and converted). -/
theorem V_v1 : (V m c main_v1 : S16x2048x1024.Idx → EReal)
    = truncf (F := Ideal) .bf16 (transpose S16x2048x1024 [1, 0, 2] (m ((c : Thread nD τ).loc main_arg0)) transposes_S2048x16x1024_S16x2048x1024_1_0_2 : FVec Ideal S16x2048x1024 .f32) bitsLt_bf16_f32 := by
  dsimp only [Gen.V, Gen.hostOps0]; after_results; all_goals rfl

/-- The context array: the second argument transposed to batch-major (and converted). -/
theorem V_v3 : (V m c main_v3 : S16x2048x1024.Idx → EReal)
    = truncf (F := Ideal) .bf16 (transpose S16x2048x1024 [1, 0, 2] (m ((c : Thread nD τ).loc main_arg1)) transposes_S2048x16x1024_S16x2048x1024_1_0_2 : FVec Ideal S16x2048x1024 .f32) bitsLt_bf16_f32 := by
  dsimp only [Gen.V, Gen.hostOps0]; after_results; all_goals rfl

/-- The mix's weight block: the first 1024 columns of the weight matrix, transposed (and converted). -/
theorem V_v6 : (V m c main_v6 : S1024x1024.Idx → EReal)
    = truncf (F := Ideal) .bf16 (transpose S1024x1024 [1, 0] (extractStridedSlice S1024x1024 ![0, 0] (m ((c : Thread nD τ).loc main_arg2)) slices_S1024x2048_S1024x1024_0_0 : FVec Ideal S1024x1024 .f32) transposes_S1024x1024_S1024x1024_1_0 : FVec Ideal S1024x1024 .f32) bitsLt_bf16_f32 := by
  dsimp only [Gen.V, Gen.hostOps0]; after_results; all_goals rfl

/-- The query's weight block: the last 1024 columns of the weight matrix, transposed (and converted). -/
theorem V_v9 : (V m c main_v9 : S1024x1024.Idx → EReal)
    = truncf (F := Ideal) .bf16 (transpose S1024x1024 [1, 0] (extractStridedSlice S1024x1024 ![0, 1024] (m ((c : Thread nD τ).loc main_arg2)) slices_S1024x2048_S1024x1024_0_1024 : FVec Ideal S1024x1024 .f32) transposes_S1024x1024_S1024x1024_1_0 : FVec Ideal S1024x1024 .f32) bitsLt_bf16_f32 := by
  dsimp only [Gen.V, Gen.hostOps0]; after_results; all_goals rfl

/-- The bias row: the bias reshaped to one row. -/
theorem V_v10 : (V m c main_v10 : S1x1024.Idx → EReal)
    = shapeCast S1x1024 (m ((c : Thread nD τ).loc main_arg3) : S1024.Idx → EReal) shapeCasts_S1024_S1x1024 := by
  dsimp only [Gen.V, Gen.hostOps0]; after_results; all_goals rfl

/-- The query array at (b, t, d) is the first argument at (t, b, d). -/
theorem V_v1_apply (b : Fin 16) (t : Fin 2048) (d : Fin 1024) :
    (V m c main_v1 : S16x2048x1024.Idx → EReal) (ix3 b t d) = (m ((c : Thread nD τ).loc main_arg0) : S2048x16x1024.Idx → EReal) (ix3 t b d) := by
  rw [V_v1]
  exact transpose_apply [1, 0, 2] _ transposes_S2048x16x1024_S16x2048x1024_1_0_2 (ix3 b t d) (ix3 t b d)
    (fun a => match a with | ⟨0, _⟩ => rfl | ⟨1, _⟩ => rfl | ⟨2, _⟩ => rfl)

/-- The context array at (b, s, d) is the second argument at (s, b, d). -/
theorem V_v3_apply (b : Fin 16) (s : Fin 2048) (d : Fin 1024) :
    (V m c main_v3 : S16x2048x1024.Idx → EReal) (ix3 b s d) = (m ((c : Thread nD τ).loc main_arg1) : S2048x16x1024.Idx → EReal) (ix3 s b d) := by
  rw [V_v3]
  exact transpose_apply [1, 0, 2] _ transposes_S2048x16x1024_S16x2048x1024_1_0_2 (ix3 b s d) (ix3 s b d)
    (fun a => match a with | ⟨0, _⟩ => rfl | ⟨1, _⟩ => rfl | ⟨2, _⟩ => rfl)

/-- The mix's weight block at (k, e) is the weight matrix at (e, k). -/
theorem V_v6_apply (k e : Fin 1024) :
    (V m c main_v6 : S1024x1024.Idx → EReal) (ix2 k e)
      = (m ((c : Thread nD τ).loc main_arg2) : S1024x2048.Idx → EReal) (ix2 e ⟨k.val, by have := k.isLt; omega⟩) := by
  rw [V_v6]
  show transpose S1024x1024 [1, 0] (extractStridedSlice S1024x1024 ![0, 0] (m ((c : Thread nD τ).loc main_arg2)) slices_S1024x2048_S1024x1024_0_0 : FVec Ideal S1024x1024 .f32) transposes_S1024x1024_S1024x1024_1_0 (ix2 k e) = _
  refine (transpose_apply [1, 0] _ transposes_S1024x1024_S1024x1024_1_0 (ix2 k e) (ix2 e k)
    (fun a => match a with | ⟨0, _⟩ => rfl | ⟨1, _⟩ => rfl)).trans ?_
  exact extractStridedSlice_apply ![0, 0] _ slices_S1024x2048_S1024x1024_0_0 (ix2 e k) (ix2 e ⟨k.val, by have := k.isLt; omega⟩)
    (fun a => match a with | ⟨0, _⟩ => by show e.val = 0 + e.val; omega | ⟨1, _⟩ => by show k.val = 0 + k.val; omega)

/-- The query's weight block at (k, e) is the weight matrix at (e, 1024 + k). -/
theorem V_v9_apply (k e : Fin 1024) :
    (V m c main_v9 : S1024x1024.Idx → EReal) (ix2 k e)
      = (m ((c : Thread nD τ).loc main_arg2) : S1024x2048.Idx → EReal) (ix2 e ⟨1024 + k.val, by have := k.isLt; omega⟩) := by
  rw [V_v9]
  show transpose S1024x1024 [1, 0] (extractStridedSlice S1024x1024 ![0, 1024] (m ((c : Thread nD τ).loc main_arg2)) slices_S1024x2048_S1024x1024_0_1024 : FVec Ideal S1024x1024 .f32) transposes_S1024x1024_S1024x1024_1_0 (ix2 k e) = _
  refine (transpose_apply [1, 0] _ transposes_S1024x1024_S1024x1024_1_0 (ix2 k e) (ix2 e k)
    (fun a => match a with | ⟨0, _⟩ => rfl | ⟨1, _⟩ => rfl)).trans ?_
  exact extractStridedSlice_apply ![0, 1024] _ slices_S1024x2048_S1024x1024_0_1024 (ix2 e k) (ix2 e ⟨1024 + k.val, by have := k.isLt; omega⟩)
    (fun a => match a with | ⟨0, _⟩ => by show e.val = 0 + e.val; omega | ⟨1, _⟩ => by show 1024 + k.val = 1024 + k.val; rfl)

/-- The bias row at (0, e) is the bias at e. -/
theorem V_v10_apply (e : Fin 1024) :
    (V m c main_v10 : S1x1024.Idx → EReal) (ix2 0 e) = (m ((c : Thread nD τ).loc main_arg3) : S1024.Idx → EReal) (ix1 e) := by
  rw [V_v10]
  exact shapeCast_apply _ shapeCasts_S1024_S1x1024 (ix2 0 e) (ix1 e)
    (by rw [Shape.rowMajor_val_one, Shape.rowMajor_val_two]; show e.val = 0 * 1024 + e.val; omega)

end Cert.KernelIdeal.HostV

end
-- ==== Proof.SpecArr.lean ====
/-
  The attention block's result as ONE function of the four argument arrays, index by index.

  At (b, t, e): the query row is the first argument's row (t, b), the context rows are the second argument's rows
  (·, b), the weights are row `e` of the weight matrix — its first 1024 entries against the mix, its last 1024 against
  the query row — and the bias is entry `e`. `GK` is the result in the kernel's order, `GR` in the reference's; they are
  equal where the two sequence arguments are real and the row has a score that is not zero (Spec's `outK_eq_outR`).
-/
import proofs.«169000_j9174050144557_2_alg».proof.Proof.Spec
import Idealize.ShloMosaic.Lib.ValueIdx

noncomputable section

namespace Cert.Attn

open Idealize.ShloMosaic Idealize.ShloMosaic.ValueIdx

/-- A sequence argument: [2048, 16, 1024]. -/
abbrev Seq := (⟨3, ![2048, 16, 1024]⟩ : Shape).Idx → EReal
/-- The weight matrix: [1024, 2048]. -/
abbrev Wgt := (⟨2, ![1024, 2048]⟩ : Shape).Idx → EReal
/-- The bias: [1024]. -/
abbrev Bias := (⟨1, ![1024]⟩ : Shape).Idx → EReal

/-- The result at (b, t, e), in the kernel's order. -/
def GK (x0 x1 : Seq) (x2 : Wgt) (x3 : Bias) (b : Fin 16) (t : Fin 2048) (e : Fin 1024) : EReal :=
  outK (fun d => x0 (ix3 t b d)) (fun s d => x1 (ix3 s b d))
    (fun k => x2 (ix2 e ⟨k.val, by have := k.isLt; omega⟩)) (fun k => x2 (ix2 e ⟨1024 + k.val, by have := k.isLt; omega⟩))
    (x3 (ix1 e))

/-- The result at (b, t, e), in the reference's order. -/
def GR (x0 x1 : Seq) (x2 : Wgt) (x3 : Bias) (b : Fin 16) (t : Fin 2048) (e : Fin 1024) : EReal :=
  outR (fun d => x0 (ix3 t b d)) (fun s d => x1 (ix3 s b d)) (fun k => x2 (ix2 e k)) (x3 (ix1 e))

/-- The result array [16, 2048, 1024], in the kernel's order. -/
def arrK (x0 x1 : Seq) (x2 : Wgt) (x3 : Bias) : (⟨3, ![16, 2048, 1024]⟩ : Shape).Idx → EReal :=
  fun i => GK x0 x1 x2 x3 ⟨(i 0).val, (i 0).isLt⟩ ⟨(i 1).val, (i 1).isLt⟩ ⟨(i 2).val, (i 2).isLt⟩

/-- The result array [16, 2048, 1024], in the reference's order. -/
def arrR (x0 x1 : Seq) (x2 : Wgt) (x3 : Bias) : (⟨3, ![16, 2048, 1024]⟩ : Shape).Idx → EReal :=
  fun i => GR x0 x1 x2 x3 ⟨(i 0).val, (i 0).isLt⟩ ⟨(i 1).val, (i 1).isLt⟩ ⟨(i 2).val, (i 2).isLt⟩

/-- The two orders give one array where the sequence arguments are real and every row has a score that is not zero. -/
theorem arrK_eq_arrR (x0 x1 : Seq) (x2 : Wgt) (x3 : Bias) (h0 : ∀ i, x0 i ≠ ⊤ ∧ x0 i ≠ ⊥) (h1 : ∀ i, x1 i ≠ ⊤ ∧ x1 i ≠ ⊥)
    (hex : ∀ (b : Fin 16) (t : Fin 2048), ∃ s : Fin 2048, score (fun d => x0 (ix3 t b d)) (fun s d => x1 (ix3 s b d)) s ≠ 0) :
    arrK x0 x1 x2 x3 = arrR x0 x1 x2 x3 := by
  funext i
  exact outK_eq_outR _ _ (fun k => x2 (ix2 _ k)) _ (fun d => h0 _) (fun s d => h1 _) (hex _ _)

end Cert.Attn

end
-- ==== Proof.KernelBlocks.lean ====
/-
  From blocks to the array: what the kernel's result array holds after the run.

  The grid has a point for every batch `b` (16) and every tile `i` (4) of 512 query rows; point (b, i) loads query rows
  512·i … 512·i + 511 of batch `b`, all 2048 context rows of batch `b`, the two weight blocks and the bias row whole, and
  writes rows 512·i … of batch `b` of the result. So what it writes back at block coordinate (0, r, e) is the array-level
  function `arrK` of the four arguments at (b, 512·i + r, e): the body's value at (r, e) (KernelPay's `pay_apply`) of blocks
  that are the argument arrays read at those coordinates (KernelHost's lemmas). The 64 blocks tile the result array, so the
  array ends holding `arrK` of the arguments everywhere.
-/
import proofs.«169000_j9174050144557_2_alg».proof.Proof.Gen.KernelIdeal.Value
import proofs.«169000_j9174050144557_2_alg».proof.Proof.KernelPay
import proofs.«169000_j9174050144557_2_alg».proof.Proof.KernelHost
import proofs.«169000_j9174050144557_2_alg».proof.Proof.SpecArr

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The body's value at (r, e), of blocks that are the argument arrays read at batch `b`, row `T`: the array-level
    result at (b, T, e). -/
theorem out_of_blocks (x0 x1 : Cert.Attn.Seq) (x2 : Cert.Attn.Wgt) (x3 : Cert.Attn.Bias)
    (B0 : Vec Ideal S1x512x1024 .bf16) (B1 : Vec Ideal S1x2048x1024 .bf16) (B2 B3 : Vec Ideal S1024x1024 .bf16)
    (B4 : Vec Ideal S1x1024 .f32) (b : Fin 16) (T : Fin 2048) (r : Fin 512) (e : Fin 1024)
    (h0 : ∀ d, B0 (ix3 0 r d) = x0 (ix3 T b d)) (h1 : ∀ s d, B1 (ix3 0 s d) = x1 (ix3 s b d))
    (h2 : ∀ k : Fin 1024, B2 (ix2 k e) = x2 (ix2 e ⟨k.val, by have := k.isLt; omega⟩))
    (h3 : ∀ k : Fin 1024, B3 (ix2 k e) = x2 (ix2 e ⟨1024 + k.val, by have := k.isLt; omega⟩))
    (h4 : B4 (ix2 0 e) = x3 (ix1 e)) :
    k0_pay2 (F := Ideal) B0 B1 B2 B3 B4 (ix2 r e) = Cert.Attn.GK x0 x1 x2 x3 b T e := by
  rw [Cert.KernelIdeal.Pay.pay_apply]
  unfold Cert.Attn.GK
  rw [funext h0, funext (fun s => funext (h1 s)), funext h2, funext h3, h4]

/-- The printed index maps, decided over the grid: the query window moves with the result window, the context window
    with its batch only, the weights and the bias stay, and the result window's block indices are a batch below 16, a
    tile below 4 and 0. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 15 ∧ win0_5.index t (1 : Fin 3) ≤ 3 ∧ win0_5.index t (2 : Fin 3) = 0 :=
  (by decide +kernel : ∀ t : Fin grid0.N, _)

/-- Every (batch, tile) is SOME point's block. -/
theorem idx_onto : ∀ (q0 : Fin 16) (q1 : Fin 4), ∃ t : Fin cfg0.N, win0_5.index t = ![q0.val, q1.val, 0] :=
  (by decide +kernel : ∀ (q0 : Fin 16) (q1 : Fin 4), ∃ t : Fin grid0.N, win0_5.index t = ![q0.val, q1.val, 0])

/-- WHAT POINT `t` WRITES BACK is block `t` of the array-level function of the arguments. -/
theorem flushed_eq (c : Dev nD) (t : Fin cfg0.N) :
    (dats m 0 c).flushed 5 t = ((cfg0.win 5).blk t).view.read (Elt Ideal)
      (Cert.Attn.arrK (m ((c : Thread nD τ).loc main_arg0)) (m ((c : Thread nD τ).loc main_arg1))
        (m ((c : Thread nD τ).loc main_arg2)) (m ((c : Thread nD τ).loc main_arg3))) := by
  rw [Cert.KernelIdeal.Value.flushed5]
  obtain ⟨e00, e01, e02, e10, e11, e12, e20, e21, e30, e31, e40, e41, l0, l1, l2⟩ := idx_facts t
  funext j
  have hj0 : (j 0).val < 1 := (j 0).isLt
  have hj1 : (j 1).val < 512 := (j 1).isLt
  have hj2 : (j 2).val < 1024 := (j 2).isLt
  show out0_5 (iblk m c 0 t) (iblk m c 1 t) (iblk m c 2 t) (iblk m c 3 t) (iblk m c 4 t) j
    = Cert.Attn.arrK _ _ _ _ (((cfg0.win 5).blk t).view.emb j)
  unfold out0_5
  refine (Cert.KernelIdeal.Value.canon5_eq _ _ _ _ _ j).trans ?_
  show k0_pay2 (F := Ideal) (View.ld (iblk m c 0 t) r0_0) (View.ld (iblk m c 1 t) r0_1) (View.ld (iblk m c 2 t) r0_2) (View.ld (iblk m c 3 t) r0_2) (View.ld (iblk m c 4 t) r0_3) (Cert.KernelIdeal.Value.ix5_0 j) = _
  simp only [View.ld_unit_zero (S := S1x512x1024) hz3, View.ld_unit_zero (S := S1x2048x1024) hz3,
    View.ld_unit_zero (S := S1024x1024) hz2, View.ld_unit_zero (S := S1x1024) hz2]
  -- the coordinates: batch b, row T of the array; row r, output coordinate e of the block
  have hix : Cert.KernelIdeal.Value.ix5_0 j = ix2 (⟨(j 1).val, hj1⟩ : Fin 512) (⟨(j 2).val, hj2⟩ : Fin 1024) :=
    funext fun a => Fin.ext (by match a with | ⟨0, _⟩ => rfl | ⟨1, _⟩ => rfl)
  have hemb : ((cfg0.win 5).blk t).view.emb j
      = ix3 (⟨win0_5.index t (0 : Fin 3), by omega⟩ : Fin 16) (⟨win0_5.index t (1 : Fin 3) * 512 + (j 1).val, by omega⟩ : Fin 2048)
          (⟨(j 2).val, hj2⟩ : Fin 1024) :=
    funext fun a => Fin.ext (by
      match a with
      | ⟨0, _⟩ => show win0_5.index t (0 : Fin 3) * 1 + 1 * (j 0).val = win0_5.index t (0 : Fin 3); omega
      | ⟨1, _⟩ => show win0_5.index t (1 : Fin 3) * 512 + 1 * (j 1).val = win0_5.index t (1 : Fin 3) * 512 + (j 1).val; omega
      | ⟨2, _⟩ => show win0_5.index t (2 : Fin 3) * 1024 + 1 * (j 2).val = (j 2).val; omega)
  rw [hix, hemb]
  refine out_of_blocks _ _ _ _ (iblk m c 0 t) (iblk m c 1 t) (iblk m c 2 t) (iblk m c 3 t) (iblk m c 4 t) _ _ _ _ ?_ ?_ ?_ ?_ ?_
  · intro d
    have hd : (d : Fin 1024).val < 1024 := d.isLt
    show (V m c main_v1 : S16x2048x1024.Idx → EReal) (((cfg0.win 0).blk t).view.emb (ix3 (0 : Fin 1) (⟨(j 1).val, hj1⟩ : Fin 512) d)) = _
    have he : ((cfg0.win 0).blk t).view.emb (ix3 (0 : Fin 1) (⟨(j 1).val, hj1⟩ : Fin 512) d)
        = ix3 (⟨win0_5.index t (0 : Fin 3), by omega⟩ : Fin 16) (⟨win0_5.index t (1 : Fin 3) * 512 + (j 1).val, by omega⟩ : Fin 2048) d :=
      funext fun a => Fin.ext (by
        match a with
        | ⟨0, _⟩ => show win0_0.index t (0 : Fin 3) * 1 + 1 * 0 = win0_5.index t (0 : Fin 3); omega
        | ⟨1, _⟩ => show win0_0.index t (1 : Fin 3) * 512 + 1 * (j 1).val = win0_5.index t (1 : Fin 3) * 512 + (j 1).val; omega
        | ⟨2, _⟩ => show win0_0.index t (2 : Fin 3) * 1024 + 1 * d.val = d.val; omega)
    rw [he]
    exact Cert.KernelIdeal.HostV.V_v1_apply m c _ _ d
  · intro s d
    show (V m c main_v3 : S16x2048x1024.Idx → EReal) (((cfg0.win 1).blk t).view.emb (ix3 (0 : Fin 1) s d)) = _
    have he : ((cfg0.win 1).blk t).view.emb (ix3 (0 : Fin 1) s d)
        = ix3 (⟨win0_5.index t (0 : Fin 3), by omega⟩ : Fin 16) s d :=
      funext fun a => Fin.ext (by
        match a with
        | ⟨0, _⟩ => show win0_1.index t (0 : Fin 3) * 1 + 1 * 0 = win0_5.index t (0 : Fin 3); omega
        | ⟨1, _⟩ => show win0_1.index t (1 : Fin 3) * 2048 + 1 * s.val = s.val; omega
        | ⟨2, _⟩ => show win0_1.index t (2 : Fin 3) * 1024 + 1 * d.val = d.val; omega)
    rw [he]
    exact Cert.KernelIdeal.HostV.V_v3_apply m c _ s d
  · intro k
    show (V m c main_v6 : S1024x1024.Idx → EReal) (((cfg0.win 2).blk t).view.emb (ix2 k (⟨(j 2).val, hj2⟩ : Fin 1024))) = _
    have he : ((cfg0.win 2).blk t).view.emb (ix2 k (⟨(j 2).val, hj2⟩ : Fin 1024)) = ix2 k (⟨(j 2).val, hj2⟩ : Fin 1024) :=
      funext fun a => Fin.ext (by
        match a with
        | ⟨0, _⟩ => show win0_2.index t (0 : Fin 2) * 1024 + 1 * k.val = k.val; omega
        | ⟨1, _⟩ => show win0_2.index t (1 : Fin 2) * 1024 + 1 * (j 2).val = (j 2).val; omega)
    rw [he]
    exact Cert.KernelIdeal.HostV.V_v6_apply m c k _
  · intro k
    show (V m c main_v9 : S1024x1024.Idx → EReal) (((cfg0.win 3).blk t).view.emb (ix2 k (⟨(j 2).val, hj2⟩ : Fin 1024))) = _
    have he : ((cfg0.win 3).blk t).view.emb (ix2 k (⟨(j 2).val, hj2⟩ : Fin 1024)) = ix2 k (⟨(j 2).val, hj2⟩ : Fin 1024) :=
      funext fun a => Fin.ext (by
        match a with
        | ⟨0, _⟩ => show win0_3.index t (0 : Fin 2) * 1024 + 1 * k.val = k.val; omega
        | ⟨1, _⟩ => show win0_3.index t (1 : Fin 2) * 1024 + 1 * (j 2).val = (j 2).val; omega)
    rw [he]
    exact Cert.KernelIdeal.HostV.V_v9_apply m c k _
  · show (V m c main_v10 : S1x1024.Idx → EReal) (((cfg0.win 4).blk t).view.emb (ix2 (0 : Fin 1) (⟨(j 2).val, hj2⟩ : Fin 1024))) = _
    have he : ((cfg0.win 4).blk t).view.emb (ix2 (0 : Fin 1) (⟨(j 2).val, hj2⟩ : Fin 1024)) = ix2 (0 : Fin 1) (⟨(j 2).val, hj2⟩ : Fin 1024) :=
      funext fun a => Fin.ext (by
        match a with
        | ⟨0, _⟩ => show win0_4.index t (0 : Fin 2) * 1 + 1 * 0 = 0; omega
        | ⟨1, _⟩ => show win0_4.index t (1 : Fin 2) * 1024 + 1 * (j 2).val = (j 2).val; omega)
    rw [he]
    exact Cert.KernelIdeal.HostV.V_v10_apply m c _

/-- An index of the array is in point `t`'s block iff each coordinate is in the block's range on its axis. -/
theorem mem_blk (t : Fin cfg0.N) (i : S16x2048x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v11).slice (win0_5.rect t)).set ↔ _
  rw [View.set_slice_whole, Rect.mem_set_unit]
  exact Iff.rfl

/-- The 64 blocks cover the result array: (b, t, e) is in the block of batch `b`, tile `t / 512`. -/
theorem cover (i : S16x2048x1024.Idx) : ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- THE ARRAY after the run is the array-level function of the arguments. -/
theorem final (c : Dev nD) : (dats m 0 c).arrAt 5 cfg0.N
    = Cert.Attn.arrK (m ((c : Thread nD τ).loc main_arg0)) (m ((c : Thread nD τ).loc main_arg1))
        (m ((c : Thread nD τ).loc main_arg2)) (m ((c : Thread nD τ).loc main_arg3)) :=
  (dats m 0 c).arrAt_eq_of_cover 5 _ (fun t _ => flushed_eq m c t) cover

/-- The kernel's run: the result array at the array-level function of the arguments, the arguments unchanged. -/
theorem run : θ_run defs (onTc (τ := τ) (main (F := Ideal))) ⟨m, fun _ => 0, ρ⟩ fun r => ∀ c : Dev nD,
      r.2.mem ((c : Thread nD τ).loc main_v11)
        = Cert.Attn.arrK (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Blocks

end
-- ==== Proof.RefIs.lean ====
/-
  The reference's result at one index.

  At batch `b`, row `t`, output coordinate `e` the reference computes the attention block's result in its own order
  (Spec's `outR`): the scores of row `t` of the transposed first argument against the rows of the transposed second, the
  zero-mask, the softmax with the weights normalised first, the product with the context rows, the concatenation with the
  query row and ONE product with row `e` of the weights, plus the bias, under `tanh`. The stages are read one operation at
  a time off the reference's run; the row maximum is a fold of `max` over the reduced axis and the concatenation is read
  by the half its coordinate falls in.
-/
import proofs.«169000_j9174050144557_2_alg».proof.Proof.RefReadP
import proofs.«169000_j9174050144557_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefIs

open Idealize.ShloMosaic Idealize.ShloMosaic.ValueIdx Cert.ReferenceIdeal Cert.ReferenceIdeal.ReadP

/-! ## Index equations: each composed index function at coordinates is the index of the coordinates -/

theorem idx_v0_l2 (b : Fin 16) (t s : Fin 2048) (d : Fin 1024) :
    idx_main_v0 (lidx_main_v2 (ix3 b t s) d) = ix3 t b d :=
  funext fun a => Fin.ext (by match a with | ⟨0, _⟩ => rfl | ⟨1, _⟩ => rfl | ⟨2, _⟩ => rfl)

theorem idx_v1_r2 (b : Fin 16) (t s : Fin 2048) (d : Fin 1024) :
    idx_main_v1 (ridx_main_v2 (ix3 b t s) d) = ix3 s b d :=
  funext fun a => Fin.ext (by match a with | ⟨0, _⟩ => rfl | ⟨1, _⟩ => rfl | ⟨2, _⟩ => rfl)

theorem idx_v9_v10 (b : Fin 16) (t s : Fin 2048) :
    idx_main_v9 (idx_main_v10 (ix3 b t s)) = ix2 b t :=
  funext fun a => Fin.ext (by match a with | ⟨0, _⟩ => rfl | ⟨1, _⟩ => rfl)

theorem idx_v14_v15 (b : Fin 16) (t s : Fin 2048) :
    idx_main_v14 (idx_main_v15 (ix3 b t s)) = ix2 b t :=
  funext fun a => Fin.ext (by match a with | ⟨0, _⟩ => rfl | ⟨1, _⟩ => rfl)

theorem idx_v13 (b : Fin 16) (t s : Fin 2048) :
    idx_main_v13 (ix2 b t) s = ix3 b t s :=
  funext fun a => Fin.ext (by match a with | ⟨0, _⟩ => rfl | ⟨1, _⟩ => rfl | ⟨2, _⟩ => rfl)

theorem idx_l17 (b : Fin 16) (t s : Fin 2048) (k : Fin 1024) :
    lidx_main_v17 (ix3 b t k) s = ix3 b t s :=
  funext fun a => Fin.ext (by match a with | ⟨0, _⟩ => rfl | ⟨1, _⟩ => rfl | ⟨2, _⟩ => rfl)

theorem idx_v1_r17 (b : Fin 16) (t s : Fin 2048) (k : Fin 1024) :
    idx_main_v1 (ridx_main_v17 (ix3 b t k) s) = ix3 s b k :=
  funext fun a => Fin.ext (by match a with | ⟨0, _⟩ => rfl | ⟨1, _⟩ => rfl | ⟨2, _⟩ => rfl)

theorem idx_v0 (b : Fin 16) (t : Fin 2048) (d : Fin 1024) :
    idx_main_v0 (ix3 b t d) = ix3 t b d :=
  funext fun a => Fin.ext (by match a with | ⟨0, _⟩ => rfl | ⟨1, _⟩ => rfl | ⟨2, _⟩ => rfl)

theorem idx_l19 (b : Fin 16) (t k : Fin 2048) (e : Fin 1024) :
    lidx_main_v19 (ix3 b t e) k = ix3 b t k :=
  funext fun a => Fin.ext (by match a with | ⟨0, _⟩ => rfl | ⟨1, _⟩ => rfl | ⟨2, _⟩ => rfl)

theorem idx_r19 (b : Fin 16) (t k : Fin 2048) (e : Fin 1024) :
    ridx_main_v19 (ix3 b t e) k = ix2 e k :=
  funext fun a => Fin.ext (by match a with | ⟨0, _⟩ => rfl | ⟨1, _⟩ => rfl)

theorem idx_v20_v21 (b : Fin 16) (t : Fin 2048) (e : Fin 1024) :
    idx_main_v20 (idx_main_v21 (ix3 b t e)) = ix1 e :=
  funext fun a => Fin.ext (by match a with | ⟨0, _⟩ => rfl)

/-! ## Constants and the comparison -/

/-- The pattern of negative infinity reads the bottom element. -/
theorem ofBits_neg_inf_f32 : Ideal.ofBits .f32 0xFF800000#32 = ⊥ := by simp [Ideal.ofBits, Ideal.ieee]

/-- The ordered equality of two extended reals, as a bit. -/
theorem cmp_oeq (x y : EReal) : Ideal.cmp .oeq x y = if x = y then 1#1 else 0#1 := by
  unfold Ideal.cmp
  by_cases h : x = y <;> simp [h]

/-- A select on "the value is zero" between the bottom element and the value is the zero-mask. -/
theorem select_msk (y : EReal) : Scalar.select (Ideal.cmp .oeq y 0) (⊥ : EReal) y = Cert.Attn.msk y := by
  unfold Cert.Attn.msk
  rw [cmp_oeq]
  by_cases h : y = 0
  · rw [if_pos h, if_pos h, select_one]
  · rw [if_neg h, if_neg h, select_zero]

/-! ## The reduced axis -/

theorem red_S : S16x2048x2048.Reduces [2] S16x2048 := by decide

/-- The reduced index (b, t) with coordinate `k` put back on the last axis is (b, t, k). -/
theorem lift_ix3 (b : Fin 16) (t : Fin 2048) (k : Fin (S16x2048x2048.size 2)) :
    red_S.lift (ix2 b t) k = ix3 b t (⟨k.val, k.isLt⟩ : Fin 2048) := by
  funext c; apply Fin.ext
  fin_cases c <;> rfl

section
variable (x0 x1 : (⟨S2048x16x1024, .f32⟩ : BufTy).Contents (Elt Ideal))
  (x2 : (⟨S1024x2048, .f32⟩ : BufTy).Contents (Elt Ideal)) (x3 : (⟨S1024, .f32⟩ : BufTy).Contents (Elt Ideal))

/-- The first product at (b, t, s) is the score of row (t, b) against row (s, b). -/
theorem v2_is (b : Fin 16) (t s : Fin 2048) :
    val_main_v2 (F := Ideal) x0 x1 (ix3 b t s)
      = Cert.Attn.score (fun d => x0 (ix3 t b d)) (fun s d => x1 (ix3 s b d)) s := by
  rw [val_main_v2_apply]
  unfold Cert.Attn.score
  refine Finset.sum_congr rfl fun d _ => ?_
  rw [val_main_v0_apply, val_main_v1_apply, idx_v0_l2, idx_v1_r2]

/-- The masked value at (b, t, s) is the masked score. -/
theorem v5_is (b : Fin 16) (t s : Fin 2048) :
    val_main_v5 (F := Ideal) x0 x1 (ix3 b t s)
      = Cert.Attn.mscore (fun d => x0 (ix3 t b d)) (fun s d => x1 (ix3 s b d)) s := by
  rw [val_main_v5_apply, val_main_v4_apply, v2_is, val_main_v3_apply, val_main_cst_apply,
    val_main_call0_v1_apply, val_main_call0_v0_apply, val_main_cst_0_apply]
  unfold Cert.Attn.mscore
  refine Eq.trans ?_ (select_msk _)
  show Scalar.select (Ideal.cmp .oeq _ (Ideal.ofBits .f32 0x00000000#32)) (Ideal.ofBits .f32 0xFF800000#32) _ = _
  rw [Ideal.ofBits_zero_f32, ofBits_neg_inf_f32]

/-- The row maximum at (b, t) is the maximum of the row's masked scores. -/
theorem v6_is (b : Fin 16) (t : Fin 2048) :
    val_main_v6 (F := Ideal) x0 x1 (ix2 b t)
      = Cert.SoftmaxLaw.rowMax (Cert.Attn.mscore (fun d => x0 (ix3 t b d)) (fun s d => x1 (ix3 s b d))) := by
  unfold val_main_v6
  rw [Host.reduce_eq_fold_single FloatOps.maximumf _ _ _ red_S _]
  unfold Cert.SoftmaxLaw.rowMax
  rw [val_main_cst_1_apply]
  show (Finset.univ : Finset (Fin 2048)).fold max (Ideal.ofBits .f32 0xFF800000#32)
      (fun s => val_main_v5 (F := Ideal) x0 x1 (red_S.lift (ix2 b t) s)) = _
  rw [ofBits_neg_inf_f32]
  refine congrArg (fun f => Finset.fold max (⊥ : EReal) f (Finset.univ : Finset (Fin 2048))) (funext fun s => ?_)
  rw [lift_ix3]
  exact v5_is x0 x1 b t s

/-- The maximum against the bottom element at (b, t) is still the row's maximum. -/
theorem v8_is (b : Fin 16) (t : Fin 2048) :
    val_main_v8 (F := Ideal) x0 x1 (ix2 b t)
      = Cert.SoftmaxLaw.rowMax (Cert.Attn.mscore (fun d => x0 (ix3 t b d)) (fun s d => x1 (ix3 s b d))) := by
  rw [val_main_v8_apply, val_main_v7_apply, val_main_cst_2_apply, v6_is]
  show max (Ideal.ofBits .f32 0xFF800000#32) _ = _
  rw [ofBits_neg_inf_f32]
  exact max_bot_left _

/-- The row's maximum, broadcast along the row. -/
theorem v10_is (b : Fin 16) (t s : Fin 2048) :
    val_main_v10 (F := Ideal) x0 x1 (ix3 b t s)
      = Cert.SoftmaxLaw.rowMax (Cert.Attn.mscore (fun d => x0 (ix3 t b d)) (fun s d => x1 (ix3 s b d))) := by
  rw [val_main_v10_apply, val_main_v9_apply, idx_v9_v10]
  exact v8_is x0 x1 b t

/-- The exponential of the masked score less the row's maximum is the weight. -/
theorem v12_is (b : Fin 16) (t s : Fin 2048) :
    val_main_v12 (F := Ideal) x0 x1 (ix3 b t s)
      = Cert.SoftmaxLaw.wgt (Cert.Attn.mscore (fun d => x0 (ix3 t b d)) (fun s d => x1 (ix3 s b d))) s := by
  rw [val_main_v12_apply, val_main_v11_apply, v5_is, v10_is]
  rfl

/-- The row's sum of weights. -/
theorem v13_is (b : Fin 16) (t : Fin 2048) :
    val_main_v13 (F := Ideal) x0 x1 (ix2 b t)
      = ∑ s, Cert.SoftmaxLaw.wgt (Cert.Attn.mscore (fun d => x0 (ix3 t b d)) (fun s d => x1 (ix3 s b d))) s := by
  rw [val_main_v13_apply, val_main_cst_3_apply]
  show Ideal.ofBits .f32 0x00000000#32 + _ = _
  rw [Ideal.ofBits_zero_f32, zero_add]
  refine Finset.sum_congr rfl fun s _ => ?_
  rw [idx_v13]
  exact v12_is x0 x1 b t s

/-- The normalised weight. -/
theorem v16_is (b : Fin 16) (t s : Fin 2048) :
    val_main_v16 (F := Ideal) x0 x1 (ix3 b t s)
      = Ideal.div (Cert.SoftmaxLaw.wgt (Cert.Attn.mscore (fun d => x0 (ix3 t b d)) (fun s d => x1 (ix3 s b d))) s)
          (∑ s', Cert.SoftmaxLaw.wgt (Cert.Attn.mscore (fun d => x0 (ix3 t b d)) (fun s d => x1 (ix3 s b d))) s') := by
  rw [val_main_v16_apply, v12_is, val_main_v15_apply, val_main_v14_apply, idx_v14_v15, v13_is]
  rfl

/-- The second product at (b, t, k) is the mix with the weights normalised first. -/
theorem v17_is (b : Fin 16) (t : Fin 2048) (k : Fin 1024) :
    val_main_v17 (F := Ideal) x0 x1 (ix3 b t k)
      = Cert.Attn.mixR (fun d => x0 (ix3 t b d)) (fun s d => x1 (ix3 s b d)) k := by
  rw [val_main_v17_apply]
  unfold Cert.Attn.mixR
  refine Finset.sum_congr rfl fun s _ => ?_
  rw [idx_l17, v16_is, val_main_v1_apply, idx_v1_r17]

/-- The concatenation at (b, t, k) is the concatenation of the mix and the query row at `k`. -/
theorem v18_is (b : Fin 16) (t k : Fin 2048) :
    val_main_v18 (F := Ideal) x0 x1 (ix3 b t k)
      = Cert.Attn.cat (Cert.Attn.mixR (fun d => x0 (ix3 t b d)) (fun s d => x1 (ix3 s b d))) (fun d => x0 (ix3 t b d)) k := by
  unfold val_main_v18 Cert.Attn.cat
  by_cases h : k.val < 1024
  · rw [dif_pos h]
    refine (concatenate_pair_apply_left (s₁ := S16x2048x1024) (s₂ := S16x2048x1024) (2 : Fin S16x2048x2048.rank) _ _ _ (ix3 b t k) rfl (ix3 b t (⟨k.val, h⟩ : Fin 1024))
      (fun c => by match c with | ⟨0, _⟩ => rfl | ⟨1, _⟩ => rfl | ⟨2, _⟩ => rfl)).trans ?_
    exact v17_is x0 x1 b t ⟨k.val, h⟩
  · rw [dif_neg h]
    have hk : k.val - 1024 < 1024 := by have := k.isLt; omega
    refine (concatenate_pair_apply_right (s₁ := S16x2048x1024) (s₂ := S16x2048x1024) (2 : Fin S16x2048x2048.rank) _ _ _ (ix3 b t k) rfl rfl (ix3 b t (⟨k.val - 1024, hk⟩ : Fin 1024))
      (fun c hc => by
        match c with
        | ⟨0, _⟩ => rfl
        | ⟨1, _⟩ => rfl
        | ⟨2, _⟩ => exact absurd rfl hc)
      (by show k.val - 1024 + 1024 = k.val; omega)).trans ?_
    rw [val_main_v0_apply, idx_v0]

/-- The last product at (b, t, e): the concatenation against row `e` of the weights. -/
theorem v19_is (b : Fin 16) (t : Fin 2048) (e : Fin 1024) :
    val_main_v19 (F := Ideal) x0 x1 x2 (ix3 b t e)
      = ∑ k, Cert.Attn.cat (Cert.Attn.mixR (fun d => x0 (ix3 t b d)) (fun s d => x1 (ix3 s b d))) (fun d => x0 (ix3 t b d)) k
          * x2 (ix2 e k) := by
  rw [val_main_v19_apply]
  refine Finset.sum_congr rfl fun k _ => ?_
  rw [idx_l19, idx_r19, v18_is]

/-- The bias, broadcast, at (b, t, e) is entry `e`. -/
theorem v21_is (b : Fin 16) (t : Fin 2048) (e : Fin 1024) :
    val_main_v21 (F := Ideal) x3 (ix3 b t e) = x3 (ix1 e) := by
  rw [val_main_v21_apply, val_main_v20_apply, idx_v20_v21]

end

/-- The reference's result at (b, t, e) is the attention result in the reference's order, of row (t, b) of the first
    argument, the rows (·, b) of the second, row `e` of the weights and entry `e` of the bias. -/
theorem ref_apply (x0 x1 : (⟨S2048x16x1024, .f32⟩ : BufTy).Contents (Elt Ideal))
    (x2 : (⟨S1024x2048, .f32⟩ : BufTy).Contents (Elt Ideal)) (x3 : (⟨S1024, .f32⟩ : BufTy).Contents (Elt Ideal))
    (b : Fin 16) (t : Fin 2048) (e : Fin 1024) :
    val_main_v23 (F := Ideal) x0 x1 x2 x3 (ix3 b t e)
      = Cert.Attn.outR (fun d => x0 (ix3 t b d)) (fun s d => x1 (ix3 s b d)) (fun k => x2 (ix2 e k)) (x3 (ix1 e)) := by
  rw [val_main_v23_apply, val_main_v22_apply, v19_is, v21_is]
  rfl

end Cert.ReferenceIdeal.RefIs

end
-- ==== Proof.PreDecode.lean ====
/-
  What the precondition says, read back.

  The precondition is a conjunction of five `jnp.all`s: each of the four arguments has `|x| < +∞` at every entry, and
  every row of the scores — the first argument's row (t, b) against the second argument's rows (·, b) — has an entry
  that is not zero. Read back: every entry of the two sequence arguments is a real, and for every batch `b` and row `t`
  some context row `s` has a score that is not zero.
-/
import proofs.«169000_j9174050144557_2_alg».proof.Pre_finite_inputs
import proofs.«169000_j9174050144557_2_alg».proof.Proof.RefIs
import proofs.«169000_j9174050144557_2_alg».proof.Proof.Spec
import Idealize.ShloMosaic.Lib.ReduceAll
import Idealize.ShloMosaic.Lib.ValueIdx
import Idealize.ShloMosaic.PureOps.Reduce

noncomputable section

namespace Cert.PreDecode

open Idealize.ShloMosaic Idealize.ShloMosaic.ValueIdx

/-- `|x| < +∞` says that `x` is a real. -/
theorem real_of_abs_lt (x : EReal) (h : Ideal.cmp .olt (max x (-x)) ⊤ = 1#1) : x ≠ ⊤ ∧ x ≠ ⊥ := by
  induction x using EReal.rec with
  | bot => simp [Ideal.cmp] at h
  | coe r => exact ⟨EReal.coe_ne_top r, EReal.coe_ne_bot r⟩
  | top => simp [Ideal.cmp] at h

/-- A left fold by `or` over one-bit words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], _, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- `jnp.any` along axes: a reduce by `or` from 0 that is 1 at `j` had a 1 at an operand index that reduces into `j`. -/
theorem reduce_ori_exists {s t u : Shape} {axes : List (Fin s.rank)} (x : s.Idx → BitVec 1) (init : u.Idx → BitVec 1)
    (h : s.ReducesTo axes t) (hu : 0 < u.numel) (j : t.Idx) (hinit : init (Shape.Idx.first hu) = 0#1)
    (e : Host.reduce IntOp.ori x init h hu j = 1#1) : ∃ i : s.Idx, h.drop i = j ∧ x i = 1#1 := by
  rw [Host.reduce_eq_foldl] at e
  rcases foldl_ori_eq_one x _ _ e with h0 | ⟨n, hn, hf⟩
  · rw [hinit] at h0; exact absurd h0 (by decide)
  · refine ⟨n, ?_, hf⟩
    have := (List.mem_filter.1 hn).2
    simpa using this

instance : Subsingleton Cert.Pre_finite_inputs.S_.Idx := ⟨fun a b => funext fun d => d.elim0⟩

variable [Cert.Pre_finite_inputs.Facts]

open Cert.Pre_finite_inputs in
/-- The precondition read back: the two sequence arguments are real at every entry, and every row of scores has an
    entry that is not zero. -/
theorem decode (a0 a1 : FVec Ideal S2048x16x1024 .f32) (a2 : FVec Ideal S1024x2048 .f32) (a3 : FVec Ideal S1024 .f32)
    (h : fn (F := Ideal) a0 a1 a2 a3 = fun _ => 1#1) :
    (∀ i, a0 i ≠ ⊤ ∧ a0 i ≠ ⊥) ∧ (∀ i, a1 i ≠ ⊤ ∧ a1 i ≠ ⊥)
      ∧ ∀ (b : Fin 16) (t : Fin 2048), ∃ s : Fin 2048,
          Cert.Attn.score (fun d => a0 (ix3 t b d)) (fun s d => a1 (ix3 s b d)) s ≠ 0 := by
  have e := congrFun h ix0
  dsimp only [fn, fn_part1] at e
  simp only [andi, IntOp.andi_eq_one] at e
  obtain ⟨⟨⟨⟨h0, h1⟩, -⟩, -⟩, h4⟩ := e
  have top_eq : Ideal.ofBits .f32 0x7F800000#32 = ⊤ := by simp [Ideal.ofBits, Ideal.ieee]
  refine ⟨fun i => ?_, fun i => ?_, fun b t => ?_⟩
  · have hi := Host.reduce_andi_all _ _ _ _ ix0 h0 i
    refine real_of_abs_lt (a0 i) ?_
    rw [← top_eq]; exact hi
  · have hi := Host.reduce_andi_all _ _ _ _ ix0 h1 i
    refine real_of_abs_lt (a1 i) ?_
    rw [← top_eq]; exact hi
  · have hj := Host.reduce_andi_all _ _ _ _ ix0 h4 (ix2 b t)
    obtain ⟨n, hn, hx⟩ := reduce_ori_exists _ _ _ _ (ix2 b t) rfl hj
    -- the index that reduces into (b, t) is (b, t, s) for its own last coordinate s
    have hd : Cert.ReferenceIdeal.RefIs.red_S.drop n = ix2 b t := by
      rw [← Shape.ReducesTo.drop_eq_drop _ Cert.ReferenceIdeal.RefIs.red_S]; exact hn
    have hnn : n = ix3 b t (⟨(n 2).val, (n 2).isLt⟩ : Fin 2048) := by
      rw [← Cert.ReferenceIdeal.RefIs.lift_ix3 b t (n 2), ← hd]
      exact (Cert.ReferenceIdeal.RefIs.red_S.lift_drop n).symm
    refine ⟨⟨(n 2).val, (n 2).isLt⟩, ?_⟩
    rw [← Cert.ReferenceIdeal.RefIs.v2_is a0 a1 b t ⟨(n 2).val, (n 2).isLt⟩, ← hnn]
    -- the comparison bit at n says the product there is not zero
    have hx' : Ideal.cmp .une (Cert.ReferenceIdeal.ReadP.val_main_v2 (F := Ideal) a0 a1 n) 0 = 1#1 := by
      rw [← Ideal.ofBits_zero_f32]; exact hx
    intro h0'
    rw [h0'] at hx'
    simp [Ideal.cmp] at hx'

end Cert.PreDecode

end
-- ==== Proof.lean ====
/-
  The certificate of an attention block: a Pallas kernel against its jnp reference, at the ideal values.

  For every batch b, query row t and output coordinate e both programs compute
      tanh ( W[e, :1024] · mix + W[e, 1024:] · q + bias[e] ),   mix = softmax-weighted sum of the context rows,
  with q the first argument's row (t, b), the context rows the second argument's rows (·, b), scores q · c_s, an exactly
  zero score masked to -∞ (the kernel's finite stand-in is named -∞), weights exp (score - row maximum) and L their sum.
  The kernel divides the weighted sum by L after the product with the context rows and applies the linear layer as two
  products; the reference normalises the weights first and applies the layer as one product over the concatenation
  [mix, q]. Splitting the concatenated sum needs nothing; moving the division across the sum needs the weights and the
  context rows to be real and L to be a nonzero real, which holds when the arguments are finite and the row has a score
  that is not zero — the precondition (on a fully masked row L = 0 and the two orders give different values of 0/0).

  The pieces: LibSoftmaxLaw (the division law), Spec and SpecArr (the two orders as functions of a row, then of the
  argument arrays, and their equality), KernelPay (the kernel body at an index), KernelHost (the arrays the kernel's
  windows find), KernelBlocks (the result array from its 64 blocks), RefIs (the reference at an index, over the
  reference's run read back in RefRunP / RefReadP), PreDecode (the precondition read back). The frames of the two kernel
  programs are the generated ones; the reference's is its run with the result dropped; the one rewrite that separates
  the idealized kernel from the kernel as written (the named -∞) is that rewrite's statement.
-/
import proofs.«169000_j9174050144557_2_alg».proof.Defs
import proofs.«169000_j9174050144557_2_alg».proof.Proof.Gen.Kernel
import proofs.«169000_j9174050144557_2_alg».proof.Proof.Gen.Kernel.Skeleton
import proofs.«169000_j9174050144557_2_alg».proof.Proof.Gen.Kernel.Launch
import proofs.«169000_j9174050144557_2_alg».proof.Proof.Gen.Kernel.Points
import proofs.«169000_j9174050144557_2_alg».proof.Proof.Gen.Kernel.Frame
import proofs.«169000_j9174050144557_2_alg».proof.Proof.Gen.KernelIdeal
import proofs.«169000_j9174050144557_2_alg».proof.Proof.Gen.KernelIdeal.Skeleton
import proofs.«169000_j9174050144557_2_alg».proof.Proof.Gen.KernelIdeal.Launch
import proofs.«169000_j9174050144557_2_alg».proof.Proof.Gen.KernelIdeal.Points
import proofs.«169000_j9174050144557_2_alg».proof.Proof.Gen.KernelIdeal.Frame
import proofs.«169000_j9174050144557_2_alg».proof.Proof.Gen.ReferenceIdeal
import proofs.«169000_j9174050144557_2_alg».proof.Proof.Gen.Pre_finite_inputs
import proofs.«169000_j9174050144557_2_alg».proof.Proof.Gen.KernelIdeal.Value
import proofs.«169000_j9174050144557_2_alg».proof.Proof.KernelBlocks
import proofs.«169000_j9174050144557_2_alg».proof.Proof.RefIs
import proofs.«169000_j9174050144557_2_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealized kernel differs from the kernel as written by one rewrite: the finite mask fill is named, and the
    name denotes `⊥`. -/
theorem preserves : Cert.preserves_Kernel_KernelIdeal :=
  IdealRules.named_const.statement Cert.KernelIdeal.κ "neg_big" .f32 0xFF333332#32 ⊥ rfl

/-- At the ideal values the kernel's result array is `arrK` of the arguments (KernelBlocks) and the reference's is
    `arrR` of arguments that agree (RefIs, index by index); under the precondition the two are one array (SpecArr). -/
theorem algebraic : Cert.algebraic_KernelIdeal_ReferenceIdeal := by
  intro m ρ m' ρ' hpre hagree
  refine ⟨_, Cert.KernelIdeal.Blocks.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v23_eq, (hagree c).1, (hagree c).2.1, (hagree c).2.2.1, (hagree c).2.2.2]
  obtain ⟨h0, h1, hex⟩ := Cert.PreDecode.decode _ _ _ _ (hpre c)
  rw [Cert.Attn.arrK_eq_arrR _ _ _ _ h0 h1 hex]
  funext i
  have hi : i = ix3 (⟨(i 0).val, (i 0).isLt⟩ : Fin 16) (⟨(i 1).val, (i 1).isLt⟩ : Fin 2048) (⟨(i 2).val, (i 2).isLt⟩ : Fin 1024) :=
    funext fun a => Fin.ext (by match a with | ⟨0, _⟩ => rfl | ⟨1, _⟩ => rfl | ⟨2, _⟩ => rfl)
  exact (congrArg _ hi).trans (Cert.ReferenceIdeal.RefIs.ref_apply _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
